-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S2000x256 : Shape := ⟨2, ![2000, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S2000x256 : S_.BroadcastsInDim S2000x256 (![] : Fin 0 → Fin S2000x256.rank)
  reducesTo_S2000x256_S_d0_1 : S2000x256.ReducesTo [0, 1] S_

variable [Facts]

def fn {F : FTy → Type} [FloatOps F] (main_arg0 : FVec F S65536x256 .f32) (main_arg1 : FVec F S2000x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S2000x256 .f32 := Host.absf main_arg1
  let main_cst_0 : FVec F S_ .f32 := constant S_ .f32 0x7F800000#32
  let main_v5 : FVec F S2000x256 .f32 := broadcastInDim S2000x256 ![] bcast_S_S2000x256 main_cst_0
  let main_v6 : IVec S2000x256 1 := cmpf .olt main_v4 main_v5
  let main_c_1 : IVec S_ 1 := constantI S_ 1 1#1
  let main_v7 : IVec S_ 1 := (fun x v => Host.reduce IntOp.andi x v reducesTo_S2000x256_S_d0_1 h_S_) main_v6 main_c_1
  let main_v8 : IVec S_ 1 := andi main_v3 main_v7
  main_v8
-- ==== Kernel.lean ====
abbrev S65536x256 : Shape := ⟨2, ![65536, 256]⟩
abbrev S2000x256 : Shape := ⟨2, ![2000, 256]⟩
abbrev S_ : Shape := ⟨0, ![]⟩
abbrev S2000 : Shape := ⟨1, ![2000]⟩
abbrev S2000x1 : Shape := ⟨2, ![2000, 1]⟩
abbrev S256x2000 : Shape := ⟨2, ![256, 2000]⟩
abbrev S65536x2000 : Shape := ⟨2, ![65536, 2000]⟩
abbrev S512x256 : Shape := ⟨2, ![512, 256]⟩
abbrev S512x2000 : Shape := ⟨2, ![512, 2000]⟩
abbrev S512 : Shape := ⟨1, ![512]⟩
abbrev S512x1 : Shape := ⟨2, ![512, 1]⟩

abbrev nBuf : Space → Nat
  | .hbm => 17
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S2000x256, .f32⟩
  | .hbm, ⟨2, _⟩ => ⟨S2000x256, .f32⟩
  | .hbm, ⟨3, _⟩ => ⟨S_, .f32⟩
  | .hbm, ⟨4, _⟩ => ⟨S2000, .f32⟩
  | .hbm, ⟨5, _⟩ => ⟨S2000x1, .f32⟩
  | .hbm, ⟨6, _⟩ => ⟨S2000x1, .f32⟩
  | .hbm, ⟨7, _⟩ => ⟨S_, .f32⟩
  | .hbm, ⟨8, _⟩ => ⟨S2000x1, .f32⟩
  | .hbm, ⟨9, _⟩ => ⟨S2000x1, .f32⟩
  | .hbm, ⟨10, _⟩ => ⟨S2000x256, .f32⟩
  | .hbm, ⟨11, _⟩ => ⟨S2000x256, .f32⟩
  | .hbm, ⟨12, _⟩ => ⟨S256x2000, .f32⟩
  | .hbm, ⟨13, _⟩ => ⟨S256x2000, .bf16⟩
  | .hbm, ⟨14, _⟩ => ⟨S2000x256, .bf16⟩
  | .hbm, ⟨15, _⟩ => ⟨S65536x256, .f32⟩
  | .hbm, ⟨16, _⟩ => ⟨S65536x2000, .f32⟩
  | .local _ .vmem, ⟨0, _⟩ => ⟨S512x256, .f32⟩
  | .local _ .vmem, ⟨1, _⟩ => ⟨S512x256, .f32⟩
  | .local _ .vmem, ⟨2, _⟩ => ⟨S256x2000, .bf16⟩
  | .local _ .vmem, ⟨3, _⟩ => ⟨S2000x256, .bf16⟩
  | .local _ .vmem, ⟨4, _⟩ => ⟨S512x256, .f32⟩
  | .local _ .vmem, ⟨5, _⟩ => ⟨S512x256, .f32⟩
  | .local _ .vmem, ⟨6, _⟩ => ⟨S512x2000, .f32⟩
  | .local _ .vmem, ⟨7, _⟩ => ⟨S512x2000, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S2000x256_S2000_d1 : S2000x256.ReducesTo [1] S2000
  h_S_ : 0 < S_.numel
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  transposes_S2000x256_S256x2000_1_0 : S2000x256.Transposes [1, 0] S256x2000
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x256 : S512x1.Broadcasts S512x256
  inb_S256x2000_S256x2000_0_0 : ∀ a, (![0, 0] : Fin 2 → Nat) a + S256x2000.size a ≤ S256x2000.size a
  h_S256x2000 : 0 < S256x2000.numel
  shapeCasts_S256x2000_S256x2000 : S256x2000.ShapeCasts S256x2000
  reduces_S512x2000_S512 : S512x2000.Reduces [1] S512
  broadcasts_S512x1_S512x2000 : S512x1.Broadcasts S512x2000
  inb_S512x2000_S512x2000_0_0 : ∀ a, (![0, 0] : Fin 2 → Nat) a + S512x2000.size a ≤ S512x2000.size a
  h_S512x2000 : 0 < S512x2000.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  dot_S512x256_S256x2000_S512x2000_1_0_0_1_n_n_wf : DotDims.WF S512x256 S256x2000 S512x2000 [1] [0] [0] [1] [] []
  dot_S512x2000_S2000x256_S512x256_1_0_0_1_n_n_wf : DotDims.WF S512x2000 S2000x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2000.size a ≤ S256x2000.size a
  hwx0_1 : ∀ i : grid0.Coords, EltTy.bits .bf16 = 32 ∨ (Rect.block (s := S256x2000) S256x2000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S2000x256.size a
  hwx0_2 : ∀ i : grid0.Coords, EltTy.bits .bf16 = 32 ∨ (Rect.block (s := S2000x256) S2000x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S65536x256.size a
  hwx0_3 : ∀ i : grid0.Coords, EltTy.bits .f32 = 32 ∨ (Rect.block (s := S65536x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2000.size a ≤ S65536x2000.size a
  hwx0_4 : ∀ i : grid0.Coords, EltTy.bits .f32 = 32 ∨ (Rect.block (s := S65536x2000) S512x2000.size (cc0_transform_4 i) (hinb0_4 i)).WholeWords (EltTy.packing .f32)

variable [Facts₀]

def dot_S512x256_S256x2000_S512x2000_1_0_0_1_n_n : DotDims S512x256 S256x2000 S512x2000 where
  lhsContracting := [1]
  rhsContracting := [0]
  lhsNonContracting := [0]
  rhsNonContracting := [1]
  lhsBatch := []
  rhsBatch := []
  wf := dot_S512x256_S256x2000_S512x2000_1_0_0_1_n_n_wf
def dot_S512x2000_S2000x256_S512x256_1_0_0_1_n_n : DotDims S512x2000 S2000x256 S512x256 where
  lhsContracting := [1]
  rhsContracting := [0]
  lhsNonContracting := [0]
  rhsNonContracting := [1]
  lhsBatch := []
  rhsBatch := []
  wf := dot_S512x2000_S2000x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x2000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S512x2000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x256 : Shape := ⟨2, ![65536, 256]⟩
abbrev S2000x256 : Shape := ⟨2, ![2000, 256]⟩
abbrev S_ : Shape := ⟨0, ![]⟩
abbrev S65536 : Shape := ⟨1, ![65536]⟩
abbrev S65536x1 : Shape := ⟨2, ![65536, 1]⟩
abbrev S2000 : Shape := ⟨1, ![2000]⟩
abbrev S2000x1 : Shape := ⟨2, ![2000, 1]⟩
abbrev S65536x2000 : Shape := ⟨2, ![65536, 2000]⟩

abbrev nBuf : Space → Nat
  | .hbm => 58
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S2000x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S65536x256, .f32⟩
  | .hbm, ⟨11, _⟩ => ⟨S65536x256, .f32⟩
  | .hbm, ⟨12, _⟩ => ⟨S2000x256, .f32⟩
  | .hbm, ⟨13, _⟩ => ⟨S_, .f32⟩
  | .hbm, ⟨14, _⟩ => ⟨S2000, .f32⟩
  | .hbm, ⟨15, _⟩ => ⟨S2000x1, .f32⟩
  | .hbm, ⟨16, _⟩ => ⟨S2000x1, .f32⟩
  | .hbm, ⟨17, _⟩ => ⟨S_, .f32⟩
  | .hbm, ⟨18, _⟩ => ⟨S2000x1, .f32⟩
  | .hbm, ⟨19, _⟩ => ⟨S2000x1, .f32⟩
  | .hbm, ⟨20, _⟩ => ⟨S2000x256, .f32⟩
  | .hbm, ⟨21, _⟩ => ⟨S2000x256, .f32⟩
  | .hbm, ⟨22, _⟩ => ⟨S65536x2000, .f32⟩
  | .hbm, ⟨23, _⟩ => ⟨S_, .f32⟩
  | .hbm, ⟨24, _⟩ => ⟨S65536, .f32⟩
  | .hbm, ⟨25, _⟩ => ⟨S_, .f32⟩
  | .hbm, ⟨26, _⟩ => ⟨S65536, .f32⟩
  | .hbm, ⟨27, _⟩ => ⟨S65536, .f32⟩
  | .hbm, ⟨28, _⟩ => ⟨S65536x1, .f32⟩
  | .hbm, ⟨29, _⟩ => ⟨S65536x2000, .f32⟩
  | .hbm, ⟨30, _⟩ => ⟨S65536x2000, .f32⟩
  | .hbm, ⟨31, _⟩ => ⟨S65536x2000, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S65536x2000, .f32⟩
  | .hbm, ⟨36, _⟩ => ⟨S65536x2000, .f32⟩
  | .hbm, ⟨37, _⟩ => ⟨S_, .f32⟩
  | .hbm, ⟨38, _⟩ => ⟨S65536x2000, .f32⟩
  | .hbm, ⟨39, _⟩ => ⟨S65536x2000, .f32⟩
  | .hbm, ⟨40, _⟩ => ⟨S_, .f32⟩
  | .hbm, ⟨41, _⟩ => ⟨S65536x2000, .f32⟩
  | .hbm, ⟨42, _⟩ => ⟨S65536x2000, .f32⟩
  | .hbm, ⟨43, _⟩ => ⟨S65536x2000, .f32⟩
  | .hbm, ⟨44, _⟩ => ⟨S65536x2000, .f32⟩
  | .hbm, ⟨45, _⟩ => ⟨S_, .f32⟩
  | .hbm, ⟨46, _⟩ => ⟨S65536x2000, .f32⟩
  | .hbm, ⟨47, _⟩ => ⟨S65536x2000, .f32⟩
  | .hbm, ⟨48, _⟩ => ⟨S65536x2000, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S65536x2000, .f32⟩
  | .hbm, ⟨56, _⟩ => ⟨S65536x2000, .f32⟩
  | .hbm, ⟨57, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  reducesTo_S2000x256_S2000_d1 : S2000x256.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  reducesTo_S65536x2000_S65536_d1 : S65536x2000.ReducesTo [1] S65536
  bcast_S_S65536 : S_.BroadcastsInDim S65536 (![] : Fin 0 → Fin S65536.rank)
  bcast_S65536x1_S65536x2000_0_1 : S65536x1.BroadcastsInDim S65536x2000 (![0, 1] : Fin 2 → Fin S65536x2000.rank)
  bcast_S_S65536x2000 : S_.BroadcastsInDim S65536x2000 (![] : Fin 0 → Fin S65536x2000.rank)
  dot_S65536x256_S2000x256_S65536x2000_1_1_0_0_n_n_wf : DotDims.WF S65536x256 S2000x256 S65536x2000 [1] [1] [0] [0] [] []
  dot_S65536x2000_S2000x256_S65536x256_1_0_0_1_n_n_wf : DotDims.WF S65536x2000 S2000x256 S65536x256 [1] [0] [0] [1] [] []

variable [Facts₀]

def dot_S65536x256_S2000x256_S65536x2000_1_1_0_0_n_n : DotDims S65536x256 S2000x256 S65536x2000 where
  lhsContracting := [1]
  rhsContracting := [1]
  lhsNonContracting := [0]
  rhsNonContracting := [0]
  lhsBatch := []
  rhsBatch := []
  wf := dot_S65536x256_S2000x256_S65536x2000_1_1_0_0_n_n_wf
def dot_S65536x2000_S2000x256_S65536x256_1_0_0_1_n_n : DotDims S65536x2000 S2000x256 S65536x256 where
  lhsContracting := [1]
  rhsContracting := [0]
  lhsNonContracting := [0]
  rhsNonContracting := [1]
  lhsBatch := []
  rhsBatch := []
  wf := dot_S65536x2000_S2000x256_S65536x256_1_0_0_1_n_n_wf

class Facts : Prop extends Facts₀ where

variable [Facts]
-- ==== Proof.Addressing.lean ====
/-
  Memory addressing with hard shrinkage, row by row, on the extended reals.

  A query row `z` (256 entries) is set against a bank of 2000 memory rows. Both are scaled to unit length
  (`x / (‖x‖ + ε)`), their cosines `s j` are turned into weights by the exponential share
  `exp (s j) / ∑ l, exp (s l)`, each weight `w` is shrunk to `w (w - λ) / ((w - λ) + ε')` where it exceeds the threshold `λ`
  and to `0` elsewhere, and the shrunk weights are divided by their sum plus `ε'`. The read-out is the weighted sum of the
  raw memory rows.

  Two spellings of the same row are stated here: the plain one (`address`) and the one that first subtracts the
  row's largest cosine before exponentiating and writes the shrinkage with a positive part and an absolute value
  (`addressShifted`). That the two agree on real inputs is proved in `AddressingLaws`.
-/
import Idealize.ShloMosaic.PureOps.Ideal
import Idealize.ShloMosaic.PureOps.Ideal.Laws
import Idealize.ShloMosaic.Lib.ValueIdx

noncomputable section

namespace Cert.Addressing

open Idealize.ShloMosaic Idealize.ShloMosaic.ValueIdx

/-- The guard added to a row's length (the single-precision value nearest `1e-10`). -/
abbrev epsN : EReal := Ideal.ofBits .f32 0x2EDBE6FF#32
/-- The shrinkage threshold (the single-precision value nearest `0.002`). -/
abbrev lam : EReal := Ideal.ofBits .f32 0x3B03126F#32
/-- The guard of the shrinkage quotients (the single-precision value nearest `1e-12`). -/
abbrev epsS : EReal := Ideal.ofBits .f32 0x2B8CBCCC#32
/-- The zero word. -/
abbrev zeroW : EReal := Ideal.ofBits .f32 0x00000000#32
/-- The word of `-∞`, from which a row's largest entry is folded. -/
abbrev negInfW : EReal := Ideal.ofBits .f32 0xFF800000#32

/-- A row scaled to unit length: entry `k` over the row's Euclidean length plus `epsN`. -/
def unitRow {n : ℕ} (x : Fin n → EReal) (k : Fin n) : EReal :=
  Ideal.div (x k) (Ideal.sqrt (∑ l, x l * x l) + epsN)

/-- The inner products of a row `a` with each row of `B`. -/
def dots {n M : ℕ} (a : Fin n → EReal) (B : Fin M → Fin n → EReal) (j : Fin M) : EReal :=
  ∑ k, a k * B j k

/-- The exponential share of entry `j`: `exp (s j) / ∑ l, exp (s l)`. -/
def expShare {M : ℕ} (s : Fin M → EReal) (j : Fin M) : EReal :=
  Ideal.div (Ideal.exp (s j)) (∑ l, Ideal.exp (s l))

/-- The same share after `μ` is subtracted from every entry. -/
def expShareShifted {M : ℕ} (s : Fin M → EReal) (μ : EReal) (j : Fin M) : EReal :=
  Ideal.div (Ideal.exp (s j - μ)) (∑ l, Ideal.exp (s l - μ))

/-- A row's largest entry, folded from `-∞` (and once more set against `-∞`). -/
def rowMax {M : ℕ} (s : Fin M → EReal) : EReal :=
  max negInfW ((Finset.univ : Finset (Fin M)).fold max negInfW s)

/-- Hard shrinkage by selection: above the threshold `w (w - λ) / ((w - λ) + ε')`, else zero. -/
def shrinkSel (w : EReal) : EReal :=
  Scalar.select (Ideal.cmp .ogt (w - lam) zeroW) (Ideal.div (w * (w - lam)) (w - lam + epsS)) zeroW

/-- Hard shrinkage by positive part and absolute value: `(w - λ)⁺ w / (|w - λ| + ε')`. -/
def shrinkRelu (w : EReal) : EReal :=
  Ideal.div (max (w - lam) zeroW * w) (max (w - lam) (-(w - lam)) + epsS)

/-- A row divided by its sum plus `epsS`. -/
def renorm {M : ℕ} (u : Fin M → EReal) (j : Fin M) : EReal :=
  Ideal.div (u j) ((∑ l, u l) + epsS)

/-- The addressing weights of a query `a` against the rows of `B`, in the plain spelling. -/
def address {n M : ℕ} (a : Fin n → EReal) (B : Fin M → Fin n → EReal) : Fin M → EReal :=
  renorm fun l => shrinkSel (expShare (dots a B) l)

/-- The same weights in the spelling that subtracts the largest cosine and shrinks by positive part. -/
def addressShifted {n M : ℕ} (a : Fin n → EReal) (B : Fin M → Fin n → EReal) : Fin M → EReal :=
  renorm fun l => shrinkRelu (expShareShifted (dots a B) (rowMax (dots a B)) l)

/-- The weights of query row `r` of `z` against the memory bank `mem`, both scaled to unit length. -/
def weight (z : (⟨2, ![65536, 256]⟩ : Shape).Idx → EReal) (mem : (⟨2, ![2000, 256]⟩ : Shape).Idx → EReal)
    (r : Fin 65536) (j : Fin 2000) : EReal :=
  address (unitRow fun k : Fin 256 => z (ix2 r k)) (fun l : Fin 2000 => unitRow fun k : Fin 256 => mem (ix2 l k)) j

/-- The read-out of query row `r` at coordinate `d`: the weights against column `d` of the raw memory bank. -/
def readout (z : (⟨2, ![65536, 256]⟩ : Shape).Idx → EReal) (mem : (⟨2, ![2000, 256]⟩ : Shape).Idx → EReal)
    (r : Fin 65536) (d : Fin 256) : EReal :=
  ∑ j : Fin 2000, weight z mem r j * mem (ix2 j d)

/-- The weight array, index by index. -/
def weightArr (z : (⟨2, ![65536, 256]⟩ : Shape).Idx → EReal) (mem : (⟨2, ![2000, 256]⟩ : Shape).Idx → EReal) :
    (⟨2, ![65536, 2000]⟩ : Shape).Idx → EReal := fun i => weight z mem (i 0) (i 1)

/-- The read-out array, index by index. -/
def readoutArr (z : (⟨2, ![65536, 256]⟩ : Shape).Idx → EReal) (mem : (⟨2, ![2000, 256]⟩ : Shape).Idx → EReal) :
    (⟨2, ![65536, 256]⟩ : Shape).Idx → EReal := fun i => readout z mem (i 0) (i 1)

end Cert.Addressing

end
-- ==== Proof.LibRowOps.lean ====
/-
  Row-wise operations on a two-dimensional array of extended reals, read at an index.

  A sum along the second axis kept as a column (`[a, b] → [a] → [a, 1]`) and the column spread back over the
  row (`[a, 1] → [a, b]`) are what a row-normalisation is made of: the row's sum, then every entry of the row set
  against it. Each lemma reads one of these layout steps at a literal index `(p, c)`.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type} {a b : ℕ}

/-- A vector of length `a` recast as a column `[a, 1]` reads, at `(i, 0)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` spread over `[a, b]` reads, at `(p, c)`, the column at row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a two-dimensional array along its second axis reads, at row `p`, the sum of that row's entries. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  show ∑ k : Fin b, v (h.lift (ix1 p) k) = _
  refine Finset.sum_congr rfl fun k _ => congrArg v (funext fun ax => Fin.ext ?_)
  match ax with
  | ⟨0, _⟩ => rfl
  | ⟨1, _⟩ => rfl

/-- The row sum kept as a column and spread back over the row: at `(p, c)` it is the sum of row `p`. -/
theorem rowSum_spread_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ k : Fin b, v (ix2 p k) :=
  (shapeCast_a_a1_apply _ hc p u).trans (rowSum_apply v h hφ hacc p)

end Cert.RowOps

end
-- ==== Proof.KernelRow.lean ====
/-
  What one grid step computes, read at an index.

  A step holds a block of 512 query rows `x0`, the unit-length memory bank laid out transposed `x1` (256 × 2000) and the
  raw memory bank `x2` (2000 × 256). Its first result, at `(p, q)`, is the addressing weight of query row `p` against
  memory row `q`: the row scaled to unit length, its inner products with the bank's columns, the exponential shares,
  the hard shrinkage and the final division by the row's sum. Its second result, at `(p, d)`, is the weighted sum of
  column `d` of the raw bank. The step's arithmetic is cut into five stages, each read at an index by itself.
-/
import proofs.«152083_j28037546508335_2_alg».proof.Proof.Gen.KernelIdeal.Skeleton
import proofs.«152083_j28037546508335_2_alg».proof.Proof.Addressing
import proofs.«152083_j28037546508335_2_alg».proof.Proof.LibRowOps

noncomputable section

namespace Cert.KernelIdeal.Row

open Cert.KernelIdeal Cert.KernelIdeal.Gen Idealize.ShloMosaic Idealize.ShloMosaic.ValueIdx
open Cert.Addressing Cert.RowOps

/-! ## The five stages -/

/-- Every row of the block over its Euclidean length plus the guard. -/
def unitRows (x0 : Vec Ideal S512x256 .f32) : FVec Ideal S512x256 .f32 :=
  divf x0 (broadcastTo S512x256 (addf (sqrt (shapeCast S512x1
    (multiReduction .add [1] S512 (mulf x0 x0) 0x00000000#32 reduces_S512x256_S512 (.inl rfl) rfl) shapeCasts_S512_S512x1))
    (broadcast S512x1 (Scalar.ofBits .f32 0x2EDBE6FF#32))) broadcasts_S512x1_S512x256)

/-- The inner products of the rows of `u` with the columns of `x1`. -/
def cosines (u : FVec Ideal S512x256 .f32) (x1 : FVec Ideal S256x2000 .bf16) : FVec Ideal S512x2000 .f32 :=
  matmul dot_S512x256_S256x2000_S512x2000_1_0_0_1_n_n none (truncf .bf16 u bitsLt_bf16_f32)
    (shapeCast S256x2000 x1 shapeCasts_S256x2000_S256x2000) (constant S512x2000 .f32 0x00000000#32)

/-- Each entry's exponential over the sum of its row's exponentials. -/
def shares (s : FVec Ideal S512x2000 .f32) : FVec Ideal S512x2000 .f32 :=
  divf (exp s) (broadcastTo S512x2000 (shapeCast S512x1
    (multiReduction .add [1] S512 (exp s) 0x00000000#32 reduces_S512x2000_S512 (.inl rfl) rfl) shapeCasts_S512_S512x1)
    broadcasts_S512x1_S512x2000)

/-- Hard shrinkage of every entry, by selection. -/
def shrunk (w : FVec Ideal S512x2000 .f32) : FVec Ideal S512x2000 .f32 :=
  select (cmpf .ogt (subf w (broadcast S512x2000 (Scalar.ofBits .f32 0x3B03126F#32))) (broadcast S512x2000 (Scalar.ofBits .f32 0x00000000#32)))
    (divf (mulf w (subf w (broadcast S512x2000 (Scalar.ofBits .f32 0x3B03126F#32))))
      (addf (subf w (broadcast S512x2000 (Scalar.ofBits .f32 0x3B03126F#32))) (broadcast S512x2000 (Scalar.ofBits .f32 0x2B8CBCCC#32))))
    (broadcast S512x2000 (Scalar.ofBits .f32 0x00000000#32))

/-- Every entry over its row's sum plus the guard. -/
def renormed (u : FVec Ideal S512x2000 .f32) : FVec Ideal S512x2000 .f32 :=
  divf u (broadcastTo S512x2000 (addf (shapeCast S512x1
    (multiReduction .add [1] S512 u 0x00000000#32 reduces_S512x2000_S512 (.inl rfl) rfl) shapeCasts_S512_S512x1)
    (broadcast S512x1 (Scalar.ofBits .f32 0x2B8CBCCC#32))) broadcasts_S512x1_S512x2000)

/-- The step's first result is the five stages in order. -/
theorem pay1_stages (x0 : Vec Ideal S512x256 .f32) (x1 : Vec Ideal S256x2000 .bf16) :
    k0_pay1 (F := Ideal) x0 x1 = renormed (shrunk (shares (cosines (unitRows x0) x1))) := rfl

/-! ## Each stage at an index -/

theorem unitRows_apply (x0 : Vec Ideal S512x256 .f32) (p : Fin 512) (k : Fin 256) :
    unitRows x0 (ix2 p k) = unitRow (fun k : Fin 256 => x0 (ix2 p k)) k := by
  unfold unitRows unitRow
  show Ideal.div (x0 (ix2 p k)) _ = Ideal.div (x0 (ix2 p k)) _
  refine congrArg (Ideal.div (x0 (ix2 p k))) ?_
  refine (broadcastTo_a1_ab_apply _ broadcasts_S512x1_S512x256 p k).trans ?_
  show Ideal.sqrt _ + epsN = Ideal.sqrt _ + epsN
  refine congrArg (fun t => Ideal.sqrt t + epsN) ?_
  exact rowSum_spread_apply (mulf x0 x0) reduces_S512x256_S512 (.inl rfl) rfl shapeCasts_S512_S512x1 p 0

/-- The contraction's operand indices, coordinate by coordinate. -/
theorem cos_lhs0 (i : S512x2000.Idx) (q : dot_S512x256_S256x2000_S512x2000_1_0_0_1_n_n.contr.Idx) :
    (dot_S512x256_S256x2000_S512x2000_1_0_0_1_n_n.lhsIdx i q 0).val = (i 0).val := by
  unfold DotDims.lhsIdx
  rw [dif_neg (show ¬(0 : Fin S512x256.rank) ∈ dot_S512x256_S256x2000_S512x2000_1_0_0_1_n_n.lhsBatch by decide),
    dif_pos (show (0 : Fin S512x256.rank) ∈ dot_S512x256_S256x2000_S512x2000_1_0_0_1_n_n.lhsNonContracting by decide)]
  rfl
theorem cos_lhs1 (i : S512x2000.Idx) (q : dot_S512x256_S256x2000_S512x2000_1_0_0_1_n_n.contr.Idx) :
    (dot_S512x256_S256x2000_S512x2000_1_0_0_1_n_n.lhsIdx i q 1).val = (q ⟨0, by decide⟩).val :=
  dot_S512x256_S256x2000_S512x2000_1_0_0_1_n_n.lhsIdx_val_of_single rfl i q
theorem cos_rhs0 (i : S512x2000.Idx) (q : dot_S512x256_S256x2000_S512x2000_1_0_0_1_n_n.contr.Idx) :
    (dot_S512x256_S256x2000_S512x2000_1_0_0_1_n_n.rhsIdx i q 0).val = (q ⟨0, by decide⟩).val :=
  dot_S512x256_S256x2000_S512x2000_1_0_0_1_n_n.rhsIdx_val_of_single rfl i q
theorem cos_rhs1 (i : S512x2000.Idx) (q : dot_S512x256_S256x2000_S512x2000_1_0_0_1_n_n.contr.Idx) :
    (dot_S512x256_S256x2000_S512x2000_1_0_0_1_n_n.rhsIdx i q 1).val = (i 1).val := by
  unfold DotDims.rhsIdx
  rw [dif_neg (show ¬(1 : Fin S256x2000.rank) ∈ dot_S512x256_S256x2000_S512x2000_1_0_0_1_n_n.rhsBatch by decide),
    dif_pos (show (1 : Fin S256x2000.rank) ∈ dot_S512x256_S256x2000_S512x2000_1_0_0_1_n_n.rhsNonContracting by decide)]
  rfl

theorem cosines_apply (u : FVec Ideal S512x256 .f32) (x1 : FVec Ideal S256x2000 .bf16) (p : Fin 512) (q : Fin 2000) :
    cosines u x1 (ix2 p q) = ∑ k : Fin 256, u (ix2 p k) * x1 (ix2 k q) := by
  unfold cosines
  rw [shapeCast_self]
  refine (Ideal.matmul_constant_zero_apply dot_S512x256_S256x2000_S512x2000_1_0_0_1_n_n none _ _ (ix2 p q)).trans ?_
  rw [← Equiv.sum_comp (contrEquiv1 dot_S512x256_S256x2000_S512x2000_1_0_0_1_n_n 256 rfl rfl).symm]
  refine Finset.sum_congr rfl fun k _ => ?_
  have hk := contrEquiv1_symm_val dot_S512x256_S256x2000_S512x2000_1_0_0_1_n_n 256 rfl rfl k
  have el : dot_S512x256_S256x2000_S512x2000_1_0_0_1_n_n.lhsIdx (ix2 p q) ((contrEquiv1 dot_S512x256_S256x2000_S512x2000_1_0_0_1_n_n 256 rfl rfl).symm k)
      = ix2 p k := funext fun a => Fin.ext (by
    match a with
    | ⟨0, _⟩ => exact cos_lhs0 _ _
    | ⟨1, _⟩ => exact (cos_lhs1 _ _).trans hk)
  have er : dot_S512x256_S256x2000_S512x2000_1_0_0_1_n_n.rhsIdx (ix2 p q) ((contrEquiv1 dot_S512x256_S256x2000_S512x2000_1_0_0_1_n_n 256 rfl rfl).symm k)
      = ix2 k q := funext fun a => Fin.ext (by
    match a with
    | ⟨0, _⟩ => exact (cos_rhs0 _ _).trans hk
    | ⟨1, _⟩ => exact cos_rhs1 _ _)
  rw [el, er]
  rfl

theorem shares_apply (s : FVec Ideal S512x2000 .f32) (p : Fin 512) (q : Fin 2000) :
    shares s (ix2 p q) = expShare (fun l : Fin 2000 => s (ix2 p l)) q := by
  unfold shares expShare
  show Ideal.div (Ideal.exp (s (ix2 p q))) _ = Ideal.div (Ideal.exp (s (ix2 p q))) _
  refine congrArg (Ideal.div (Ideal.exp (s (ix2 p q)))) ?_
  refine (broadcastTo_a1_ab_apply _ broadcasts_S512x1_S512x2000 p q).trans ?_
  exact rowSum_spread_apply (exp s) reduces_S512x2000_S512 (.inl rfl) rfl shapeCasts_S512_S512x1 p 0

theorem shrunk_apply (w : FVec Ideal S512x2000 .f32) (i : S512x2000.Idx) : shrunk w i = shrinkSel (w i) := rfl

theorem renormed_apply (u : FVec Ideal S512x2000 .f32) (p : Fin 512) (q : Fin 2000) :
    renormed u (ix2 p q) = renorm (fun l : Fin 2000 => u (ix2 p l)) q := by
  unfold renormed renorm
  show Ideal.div (u (ix2 p q)) _ = Ideal.div (u (ix2 p q)) _
  refine congrArg (Ideal.div (u (ix2 p q))) ?_
  refine (broadcastTo_a1_ab_apply _ broadcasts_S512x1_S512x2000 p q).trans ?_
  show _ + epsS = _ + epsS
  refine congrArg (· + epsS) ?_
  exact rowSum_spread_apply u reduces_S512x2000_S512 (.inl rfl) rfl shapeCasts_S512_S512x1 p 0

/-! ## The step's two results at an index -/

/-- The first result at `(p, q)`: the addressing weight of query row `p` against the bank's column `q`. -/
theorem pay1_apply (x0 : Vec Ideal S512x256 .f32) (x1 : Vec Ideal S256x2000 .bf16) (p : Fin 512) (q : Fin 2000) :
    k0_pay1 (F := Ideal) x0 x1 (ix2 p q)
      = address (unitRow fun k : Fin 256 => x0 (ix2 p k)) (fun (l : Fin 2000) (k : Fin 256) => x1 (ix2 k l)) q := by
  rw [pay1_stages, renormed_apply]
  unfold address
  refine congrArg (fun f => renorm f q) (funext fun l => ?_)
  rw [shrunk_apply, shares_apply]
  refine congrArg shrinkSel (congrArg (fun f => expShare f l) (funext fun l' => ?_))
  rw [cosines_apply]
  unfold dots
  exact Finset.sum_congr rfl fun k _ => by rw [unitRows_apply]

/-- The weighted sums of the raw bank's columns. -/
def readRows (w : FVec Ideal S512x2000 .f32) (x2 : FVec Ideal S2000x256 .bf16) : FVec Ideal S512x256 .f32 :=
  matmul dot_S512x2000_S2000x256_S512x256_1_0_0_1_n_n none (truncf .bf16 w bitsLt_bf16_f32)
    (shapeCast S2000x256 x2 shapeCasts_S2000x256_S2000x256) (constant S512x256 .f32 0x00000000#32)

/-- The step's second result is the read-out of its first. -/
theorem pay2_stages (x0 : Vec Ideal S512x256 .f32) (x1 : Vec Ideal S256x2000 .bf16) (x2 : Vec Ideal S2000x256 .bf16) :
    k0_pay2 (F := Ideal) x0 x1 x2 = readRows (k0_pay1 (F := Ideal) x0 x1) x2 := rfl

theorem read_lhs0 (i : S512x256.Idx) (q : dot_S512x2000_S2000x256_S512x256_1_0_0_1_n_n.contr.Idx) :
    (dot_S512x2000_S2000x256_S512x256_1_0_0_1_n_n.lhsIdx i q 0).val = (i 0).val := by
  unfold DotDims.lhsIdx
  rw [dif_neg (show ¬(0 : Fin S512x2000.rank) ∈ dot_S512x2000_S2000x256_S512x256_1_0_0_1_n_n.lhsBatch by decide),
    dif_pos (show (0 : Fin S512x2000.rank) ∈ dot_S512x2000_S2000x256_S512x256_1_0_0_1_n_n.lhsNonContracting by decide)]
  rfl
theorem read_lhs1 (i : S512x256.Idx) (q : dot_S512x2000_S2000x256_S512x256_1_0_0_1_n_n.contr.Idx) :
    (dot_S512x2000_S2000x256_S512x256_1_0_0_1_n_n.lhsIdx i q 1).val = (q ⟨0, by decide⟩).val :=
  dot_S512x2000_S2000x256_S512x256_1_0_0_1_n_n.lhsIdx_val_of_single rfl i q
theorem read_rhs0 (i : S512x256.Idx) (q : dot_S512x2000_S2000x256_S512x256_1_0_0_1_n_n.contr.Idx) :
    (dot_S512x2000_S2000x256_S512x256_1_0_0_1_n_n.rhsIdx i q 0).val = (q ⟨0, by decide⟩).val :=
  dot_S512x2000_S2000x256_S512x256_1_0_0_1_n_n.rhsIdx_val_of_single rfl i q
theorem read_rhs1 (i : S512x256.Idx) (q : dot_S512x2000_S2000x256_S512x256_1_0_0_1_n_n.contr.Idx) :
    (dot_S512x2000_S2000x256_S512x256_1_0_0_1_n_n.rhsIdx i q 1).val = (i 1).val := by
  unfold DotDims.rhsIdx
  rw [dif_neg (show ¬(1 : Fin S2000x256.rank) ∈ dot_S512x2000_S2000x256_S512x256_1_0_0_1_n_n.rhsBatch by decide),
    dif_pos (show (1 : Fin S2000x256.rank) ∈ dot_S512x2000_S2000x256_S512x256_1_0_0_1_n_n.rhsNonContracting by decide)]
  rfl

theorem readRows_apply (w : FVec Ideal S512x2000 .f32) (x2 : FVec Ideal S2000x256 .bf16) (p : Fin 512) (d : Fin 256) :
    readRows w x2 (ix2 p d) = ∑ j : Fin 2000, w (ix2 p j) * x2 (ix2 j d) := by
  unfold readRows
  rw [shapeCast_self]
  refine (Ideal.matmul_constant_zero_apply dot_S512x2000_S2000x256_S512x256_1_0_0_1_n_n none _ _ (ix2 p d)).trans ?_
  rw [← Equiv.sum_comp (contrEquiv1 dot_S512x2000_S2000x256_S512x256_1_0_0_1_n_n 2000 rfl rfl).symm]
  refine Finset.sum_congr rfl fun k _ => ?_
  have hk := contrEquiv1_symm_val dot_S512x2000_S2000x256_S512x256_1_0_0_1_n_n 2000 rfl rfl k
  have el : dot_S512x2000_S2000x256_S512x256_1_0_0_1_n_n.lhsIdx (ix2 p d) ((contrEquiv1 dot_S512x2000_S2000x256_S512x256_1_0_0_1_n_n 2000 rfl rfl).symm k)
      = ix2 p k := funext fun a => Fin.ext (by
    match a with
    | ⟨0, _⟩ => exact read_lhs0 _ _
    | ⟨1, _⟩ => exact (read_lhs1 _ _).trans hk)
  have er : dot_S512x2000_S2000x256_S512x256_1_0_0_1_n_n.rhsIdx (ix2 p d) ((contrEquiv1 dot_S512x2000_S2000x256_S512x256_1_0_0_1_n_n 2000 rfl rfl).symm k)
      = ix2 k d := funext fun a => Fin.ext (by
    match a with
    | ⟨0, _⟩ => exact (read_rhs0 _ _).trans hk
    | ⟨1, _⟩ => exact read_rhs1 _ _)
  rw [el, er]
  rfl

/-- The second result at `(p, d)`: the first result's row `p` against column `d` of the raw bank. -/
theorem pay2_apply (x0 : Vec Ideal S512x256 .f32) (x1 : Vec Ideal S256x2000 .bf16) (x2 : Vec Ideal S2000x256 .bf16)
    (p : Fin 512) (d : Fin 256) :
    k0_pay2 (F := Ideal) x0 x1 x2 (ix2 p d) = ∑ j : Fin 2000, k0_pay1 (F := Ideal) x0 x1 (ix2 p j) * x2 (ix2 j d) := by
  rw [pay2_stages]
  exact readRows_apply _ _ p d

end Cert.KernelIdeal.Row

end
-- ==== Proof.AddressingLaws.lean ====
/-
  Laws of the row-by-row addressing on the extended reals: a row of reals scaled to unit length is a row of reals,
  and on real inputs the two spellings of the addressing weights (`address`, `addressShifted`) agree.

  The second law has four parts. Inner products of real rows are real. The largest entry of a nonempty row of reals
  is real. Subtracting a real `m` from every entry leaves the exponential shares unchanged, since
  `exp (r - m) = exp r / exp m` and the factor `1 / exp m` cancels between an entry and the sum. The two
  spellings of the hard shrinkage agree at every extended real `w`: with `d = w - λ`, where `0 < d` both are
  `w d / (d + ε')`, and elsewhere both are `0` because the numerator `d⁺ w` vanishes while the denominator
  `|d| + ε'` is positive.
-/
import proofs.«152083_j28037546508335_2_alg».proof.Proof.Addressing

noncomputable section

namespace Cert.Addressing

open Idealize.ShloMosaic Idealize.ShloMosaic.ValueIdx

/-! ### The literals -/

/-- The word of `-∞` denotes `⊥`. -/
theorem negInfW_eq : negInfW = ⊥ := by
  simp [negInfW, Ideal.ofBits, Ideal.ieee]

/-- The zero word denotes `0`. -/
theorem zeroW_eq : zeroW = 0 := Ideal.ofBits_zero_f32

/-- The guard of a row's length is a positive real. -/
theorem epsN_pos : ∃ e : ℝ, 0 < e ∧ epsN = (e : EReal) := by
  refine ⟨_, ?_, by simp [epsN, Ideal.ofBits, Ideal.ieee, -EReal.coe_mul]; rfl⟩
  positivity

/-- The guard of the shrinkage quotients is a positive real. -/
theorem epsS_pos : ∃ e : ℝ, 0 < e ∧ epsS = (e : EReal) := by
  refine ⟨_, ?_, by simp [epsS, Ideal.ofBits, Ideal.ieee, -EReal.coe_mul]; rfl⟩
  positivity

/-! ### Real sums and quotients inside the extended reals -/

/-- The embedding of the reals carries finite sums to finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real is the real quotient. -/
theorem div_coe (a b : ℝ) (hb : b ≠ 0) : Ideal.div (a : EReal) (b : EReal) = ((a / b : ℝ) : EReal) := by
  unfold Ideal.div
  rw [if_neg (EReal.coe_ne_zero.2 hb), ← EReal.coe_inv, ← EReal.coe_mul, div_eq_mul_inv]

/-! ### (A) Unit rows of reals are real -/

/-- (A) a row of reals scaled to unit length is a row of reals -/
theorem unitRow_real {n : ℕ} (x : Fin n → EReal) (hx : ∀ k, ∃ r : ℝ, x k = (r : EReal)) (k : Fin n) :
    ∃ r : ℝ, unitRow x k = (r : EReal) := by
  choose r hr using hx
  obtain ⟨e, he, hE⟩ := epsN_pos
  have hsum : (∑ l, x l * x l) = ((∑ l, r l * r l : ℝ) : EReal) := by
    rw [coe_sum]
    refine Finset.sum_congr rfl fun l _ => ?_
    rw [hr l, EReal.coe_mul]
  have hnn : 0 ≤ ∑ l, r l * r l := Finset.sum_nonneg fun l _ => mul_self_nonneg _
  have hpos : 0 < Real.sqrt (∑ l, r l * r l) + e := add_pos_of_nonneg_of_pos (Real.sqrt_nonneg _) he
  refine ⟨r k / (Real.sqrt (∑ l, r l * r l) + e), ?_⟩
  unfold unitRow
  rw [hsum, Ideal.sqrt_coe, if_neg (not_lt.mpr hnn), hE, ← EReal.coe_add, hr k]
  exact div_coe _ _ hpos.ne'

/-! ### (B) The two spellings of the addressing weights -/

/-- Inner products of real rows are real. -/
theorem dots_real {n M : ℕ} (a : Fin n → EReal) (B : Fin M → Fin n → EReal)
    (ha : ∀ k, ∃ r : ℝ, a k = (r : EReal)) (hB : ∀ l k, ∃ r : ℝ, B l k = (r : EReal)) (j : Fin M) :
    ∃ r : ℝ, dots a B j = (r : EReal) := by
  choose ra hra using ha
  choose rB hrB using hB
  refine ⟨∑ k, ra k * rB j k, ?_⟩
  unfold dots
  rw [coe_sum]
  refine Finset.sum_congr rfl fun k _ => ?_
  rw [hra k, hrB j k, EReal.coe_mul]

/-- The largest entry of a nonempty row of reals is real: it is below `⊤` because every entry is, and above `⊥`
    because it is at least the entry `s j`. -/
theorem rowMax_real {M : ℕ} (s : Fin M → EReal) (hs : ∀ l, ∃ r : ℝ, s l = (r : EReal)) (j : Fin M) :
    ∃ m : ℝ, rowMax s = (m : EReal) := by
  unfold rowMax
  rw [negInfW_eq, max_eq_right bot_le]
  have hlt : (Finset.univ : Finset (Fin M)).fold max ⊥ s < ⊤ := by
    rw [Finset.fold_max_lt]
    refine ⟨bot_lt_top, fun l _ => ?_⟩
    obtain ⟨r, hr⟩ := hs l
    rw [hr]
    exact EReal.coe_lt_top r
  have hgt : ⊥ < (Finset.univ : Finset (Fin M)).fold max ⊥ s := by
    rw [Finset.lt_fold_max]
    obtain ⟨r, hr⟩ := hs j
    exact Or.inr ⟨j, Finset.mem_univ j, by rw [hr]; exact EReal.bot_lt_coe r⟩
  exact ⟨_, (EReal.coe_toReal hlt.ne hgt.ne').symm⟩

/-- Subtracting a real from every entry of a row of reals leaves the exponential shares unchanged. -/
theorem expShareShifted_eq {M : ℕ} (s : Fin M → EReal) (μ : EReal) (hs : ∀ l, ∃ r : ℝ, s l = (r : EReal))
    (hμ : ∃ m : ℝ, μ = (m : EReal)) (j : Fin M) : expShareShifted s μ j = expShare s j := by
  choose r hr using hs
  obtain ⟨m, rfl⟩ := hμ
  have h1 : (∑ l, Ideal.exp (s l - (m : EReal))) = ((∑ l, Real.exp (r l - m) : ℝ) : EReal) := by
    rw [coe_sum]
    refine Finset.sum_congr rfl fun l _ => ?_
    rw [hr l, ← EReal.coe_sub, Ideal.exp_coe]
  have h2 : (∑ l, Ideal.exp (s l)) = ((∑ l, Real.exp (r l) : ℝ) : EReal) := by
    rw [coe_sum]
    refine Finset.sum_congr rfl fun l _ => ?_
    rw [hr l, Ideal.exp_coe]
  have p1 : 0 < ∑ l, Real.exp (r l - m) := Finset.sum_pos (fun l _ => Real.exp_pos _) ⟨j, Finset.mem_univ j⟩
  have p2 : 0 < ∑ l, Real.exp (r l) := Finset.sum_pos (fun l _ => Real.exp_pos _) ⟨j, Finset.mem_univ j⟩
  have hsum : ∑ l, Real.exp (r l - m) = (∑ l, Real.exp (r l)) / Real.exp m := by
    rw [Finset.sum_div]
    exact Finset.sum_congr rfl fun l _ => Real.exp_sub _ _
  unfold expShareShifted expShare
  rw [h1, h2, hr j, ← EReal.coe_sub, Ideal.exp_coe, Ideal.exp_coe, div_coe _ _ p1.ne', div_coe _ _ p2.ne']
  congr 1
  rw [hsum, Real.exp_sub]
  have hm : Real.exp m ≠ 0 := (Real.exp_pos m).ne'
  field_simp

/-- The two spellings of the hard shrinkage agree at every extended real. -/
theorem shrinkRelu_eq (w : EReal) : shrinkRelu w = shrinkSel w := by
  obtain ⟨e, he, hE⟩ := epsS_pos
  have hpos : (0 : EReal) < epsS := by rw [hE]; exact EReal.coe_pos.2 he
  unfold shrinkRelu shrinkSel Ideal.cmp
  rw [zeroW_eq]
  generalize w - lam = d
  by_cases hd : 0 < d
  · have hneg : -d ≤ d := le_trans (EReal.neg_le.1 (by rw [neg_zero]; exact hd.le)) hd.le
    rw [max_eq_left hd.le, max_eq_left hneg, mul_comm d w]
    simp [hd, select_one]
  · have hd0 : d ≤ 0 := not_lt.1 hd
    have hnd : 0 ≤ -d := EReal.neg_nonneg.2 hd0
    have hden : (0 : EReal) < -d + epsS :=
      calc (0 : EReal) < epsS := hpos
        _ = 0 + epsS := (zero_add _).symm
        _ ≤ -d + epsS := add_le_add hnd le_rfl
    rw [max_eq_right hd0, max_eq_right (le_trans hd0 hnd), zero_mul]
    unfold Ideal.div
    rw [if_neg hden.ne', zero_mul]
    simp [hd, select_zero]

/-- (B) on real inputs the two spellings of the addressing weights agree -/
theorem addressShifted_eq {n M : ℕ} (a : Fin n → EReal) (B : Fin M → Fin n → EReal)
    (ha : ∀ k, ∃ r : ℝ, a k = (r : EReal)) (hB : ∀ l k, ∃ r : ℝ, B l k = (r : EReal)) (j : Fin M) :
    addressShifted a B j = address a B j := by
  have hd := dots_real a B ha hB
  unfold addressShifted address
  refine congrArg (fun u => renorm u j) (funext fun l => ?_)
  rw [expShareShifted_eq (dots a B) _ hd (rowMax_real _ hd j) l]
  exact shrinkRelu_eq _

end Cert.Addressing

end
-- ==== Proof.ReferenceRow.lean ====
/-
  The reference's two results, read at an index.

  The reference scales every query row and every memory row to unit length, takes all inner products, turns each
  row of them into weights by the exponential share after subtracting the row's largest entry, shrinks the weights by
  positive part and absolute value, divides by the row's sum plus the guard, and reads the raw memory bank out with
  the weights. Read one operation at a time this is, at `(r, j)`, the shifted spelling of the addressing weights of
  query row `r`, and on real inputs that is the plain spelling.
-/
import proofs.«152083_j28037546508335_2_alg».proof.Proof.Gen.ReferenceIdeal.Read
import proofs.«152083_j28037546508335_2_alg».proof.Proof.AddressingLaws
import Idealize.ShloMosaic.PureOps.Reduce

noncomputable section

namespace Cert.ReferenceIdeal.RefRow

open Cert.ReferenceIdeal Cert.ReferenceIdeal.Gen Cert.ReferenceIdeal.Read Idealize.ShloMosaic Idealize.ShloMosaic.ValueIdx
open Cert.Addressing

variable (z : (⟨S65536x256, .f32⟩ : BufTy).Contents (Elt Ideal)) (mem : (⟨S2000x256, .f32⟩ : BufTy).Contents (Elt Ideal))

/-- A query row scaled to unit length. -/
theorem unit_query (r : Fin 65536) (k : Fin 256) :
    val_main_v7 (F := Ideal) z (ix2 r k) = unitRow (fun k : Fin 256 => z (ix2 r k)) k := by
  have e : ∀ k' : Fin 256, idx_main_v1 (idx_main_v2 (idx_main_v6 (ix2 r k))) k' = ix2 r k' := fun k' =>
    funext fun a => Fin.ext (by match a with | ⟨0, _⟩ => rfl | ⟨1, _⟩ => rfl)
  rw [val_main_v7_apply, val_main_v6_apply, val_main_v5_apply, val_main_v3_apply, val_main_v2_apply, val_main_v1_apply,
    val_main_v4_apply, val_main_cst_0_apply, val_main_cst_apply]
  simp only [val_main_v0_apply, e, Ideal.hostDivf_def, Ideal.addf_def, Ideal.hostUnary_sqrt_def, Ideal.ofBits_def,
    Ideal.mulf_def, Ideal.ofBits_zero_f32, zero_add]
  rfl

/-- A memory row scaled to unit length. -/
theorem unit_memory (l : Fin 2000) (k : Fin 256) :
    val_main_v15 (F := Ideal) mem (ix2 l k) = unitRow (fun k : Fin 256 => mem (ix2 l k)) k := by
  have e : ∀ k' : Fin 256, idx_main_v9 (idx_main_v10 (idx_main_v14 (ix2 l k))) k' = ix2 l k' := fun k' =>
    funext fun a => Fin.ext (by match a with | ⟨0, _⟩ => rfl | ⟨1, _⟩ => rfl)
  rw [val_main_v15_apply, val_main_v14_apply, val_main_v13_apply, val_main_v11_apply, val_main_v10_apply, val_main_v9_apply,
    val_main_v12_apply, val_main_cst_2_apply, val_main_cst_1_apply]
  simp only [val_main_v8_apply, e, Ideal.hostDivf_def, Ideal.addf_def, Ideal.hostUnary_sqrt_def, Ideal.ofBits_def,
    Ideal.mulf_def, Ideal.ofBits_zero_f32, zero_add]
  rfl

/-- The cosines of query row `r` with every memory row. -/
def cosRow (r : Fin 65536) : Fin 2000 → EReal :=
  dots (unitRow fun k : Fin 256 => z (ix2 r k)) (fun l : Fin 2000 => unitRow fun k : Fin 256 => mem (ix2 l k))

theorem cosines_apply (r : Fin 65536) (j : Fin 2000) :
    val_main_v16 (F := Ideal) z mem (ix2 r j) = cosRow z mem r j := by
  rw [val_main_v16_apply]
  unfold cosRow dots
  refine Finset.sum_congr rfl fun k _ => ?_
  have el : lidx_main_v16 (ix2 r j) k = ix2 r k :=
    funext fun a => Fin.ext (by match a with | ⟨0, _⟩ => rfl | ⟨1, _⟩ => rfl)
  have er : ridx_main_v16 (ix2 r j) k = ix2 j k :=
    funext fun a => Fin.ext (by match a with | ⟨0, _⟩ => rfl | ⟨1, _⟩ => rfl)
  rw [el, er, unit_query, unit_memory]

/-- The row's largest cosine, as the reference folds it. -/
theorem rowMax_apply (r : Fin 65536) :
    val_main_v19 (F := Ideal) z mem (ix1 r) = rowMax (cosRow z mem r) := by
  have hred : S65536x2000.Reduces [1] S65536 := by decide
  rw [val_main_v19_apply, val_main_v18_apply, val_main_cst_4_apply]
  unfold val_main_v17 rowMax
  rw [Host.reduce_eq_fold_single (FloatOps.maximumf (F := Ideal) (φ := .f32)) _ _ Facts₀.reducesTo_S65536x2000_S65536_d1 hred Facts₀.h_S_ (ix1 r),
    val_main_cst_3_apply]
  show max negInfW ((Finset.univ : Finset (Fin 2000)).fold max negInfW _) = _
  refine congrArg (fun f : Fin 2000 → EReal => max negInfW ((Finset.univ : Finset (Fin 2000)).fold max negInfW f)) (funext fun l : Fin 2000 => ?_)
  show val_main_v16 (F := Ideal) z mem (hred.lift (ix1 r) l) = _
  have e : hred.lift (ix1 r) l = ix2 r l := funext fun a => Fin.ext (by match a with | ⟨0, _⟩ => rfl | ⟨1, _⟩ => rfl)
  rw [e, cosines_apply]

/-- The exponential shares after the largest cosine is subtracted. -/
theorem shares_apply (r : Fin 65536) (j : Fin 2000) :
    val_main_v27 (F := Ideal) z mem (ix2 r j) = expShareShifted (cosRow z mem r) (rowMax (cosRow z mem r)) j := by
  have e1 : ∀ l : Fin 2000, idx_main_v24 (idx_main_v25 (idx_main_v26 (ix2 r j))) l = ix2 r l := fun l =>
    funext fun a => Fin.ext (by match a with | ⟨0, _⟩ => rfl | ⟨1, _⟩ => rfl)
  have e2 : ∀ l : Fin 2000, idx_main_v20 (idx_main_v21 (ix2 r l)) = ix1 r := fun l =>
    funext fun a => Fin.ext (by match a with | ⟨0, _⟩ => rfl)
  have hs : ∀ l : Fin 2000, val_main_v23 (F := Ideal) z mem (ix2 r l)
      = Ideal.exp (cosRow z mem r l - rowMax (cosRow z mem r)) := fun l => by
    rw [val_main_v23_apply, val_main_v22_apply, val_main_v21_apply, val_main_v20_apply, e2, rowMax_apply, cosines_apply]
    rfl
  rw [val_main_v27_apply, val_main_v26_apply, val_main_v25_apply, val_main_v24_apply, val_main_cst_5_apply]
  simp only [e1, hs, Ideal.hostDivf_def, Ideal.ofBits_def, Ideal.ofBits_zero_f32, zero_add]
  rfl

/-- The shrinkage by positive part and absolute value, entry by entry. -/
theorem shrunk_apply (i : S65536x2000.Idx) :
    val_main_v35 (F := Ideal) z mem i = shrinkRelu (val_main_v27 (F := Ideal) z mem i) := by
  rw [val_main_v35_apply, val_main_v31_apply, val_main_v30_apply, val_main_v34_apply, val_main_v32_apply, val_main_v29_apply,
    val_main_v28_apply, val_main_cst_6_apply, val_main_v33_apply, val_main_cst_7_apply, val_main_call0_v0_apply,
    val_main_call0_cst_apply]
  rfl

/-- The weights of query row `r`, in the shifted spelling. -/
theorem weights_apply (r : Fin 65536) (j : Fin 2000) :
    val_main_v41 (F := Ideal) z mem (ix2 r j)
      = addressShifted (unitRow fun k : Fin 256 => z (ix2 r k)) (fun l : Fin 2000 => unitRow fun k : Fin 256 => mem (ix2 l k)) j := by
  have e1 : ∀ l : Fin 2000, idx_main_v36 (idx_main_v37 (idx_main_v40 (ix2 r j))) l = ix2 r l := fun l =>
    funext fun a => Fin.ext (by match a with | ⟨0, _⟩ => rfl | ⟨1, _⟩ => rfl)
  have hs : ∀ l : Fin 2000, val_main_v35 (F := Ideal) z mem (ix2 r l)
      = shrinkRelu (expShareShifted (cosRow z mem r) (rowMax (cosRow z mem r)) l) := fun l => by
    rw [shrunk_apply, shares_apply]
  rw [val_main_v41_apply, val_main_v40_apply, val_main_v39_apply, val_main_v37_apply, val_main_v36_apply, val_main_v38_apply,
    val_main_cst_9_apply, val_main_cst_8_apply]
  simp only [e1, hs, Ideal.hostDivf_def, Ideal.addf_def, Ideal.ofBits_def, Ideal.ofBits_zero_f32, zero_add]
  rfl

/-- On real inputs the reference's weights are the addressing weights. -/
theorem weights_eq (hz : ∀ i, ∃ x : ℝ, z i = (x : EReal)) (hm : ∀ i, ∃ x : ℝ, mem i = (x : EReal)) (r : Fin 65536) (j : Fin 2000) :
    val_main_v41 (F := Ideal) z mem (ix2 r j) = weight z mem r j := by
  rw [weights_apply]
  unfold weight
  exact addressShifted_eq _ _ (unitRow_real _ fun k => hz _) (fun l => unitRow_real _ fun k => hm _) j

/-- The read-out of query row `r` at coordinate `d`. -/
theorem readout_eq (hz : ∀ i, ∃ x : ℝ, z i = (x : EReal)) (hm : ∀ i, ∃ x : ℝ, mem i = (x : EReal)) (r : Fin 65536) (d : Fin 256) :
    val_main_v42 (F := Ideal) z mem (ix2 r d) = readout z mem r d := by
  rw [val_main_v42_apply]
  unfold readout
  refine Finset.sum_congr rfl fun j _ => ?_
  have el : lidx_main_v42 (ix2 r d) j = ix2 r j :=
    funext fun a => Fin.ext (by match a with | ⟨0, _⟩ => rfl | ⟨1, _⟩ => rfl)
  have er : ridx_main_v42 (ix2 r d) j = ix2 j d :=
    funext fun a => Fin.ext (by match a with | ⟨0, _⟩ => rfl | ⟨1, _⟩ => rfl)
  rw [el, er, weights_eq z mem hz hm]

/-- The reference's two results as whole arrays. -/
theorem weightArr_eq (hz : ∀ i, ∃ x : ℝ, z i = (x : EReal)) (hm : ∀ i, ∃ x : ℝ, mem i = (x : EReal)) :
    val_main_v41 (F := Ideal) z mem = weightArr z mem := by
  funext i
  rw [eq_ix2 i]
  exact weights_eq z mem hz hm _ _

theorem readoutArr_eq (hz : ∀ i, ∃ x : ℝ, z i = (x : EReal)) (hm : ∀ i, ∃ x : ℝ, mem i = (x : EReal)) :
    val_main_v42 (F := Ideal) z mem = readoutArr z mem := by
  funext i
  rw [eq_ix2 i]
  exact readout_eq z mem hz hm _ _

end Cert.ReferenceIdeal.RefRow

end
-- ==== Proof.KernelArrays.lean ====
/-
  From the grid steps to the two result arrays.

  Step `t` of the 128 reads rows `512 t … 512 t + 511` of the queries and the whole (preprocessed) memory bank, and
  writes the same rows of the two results. The preprocessed bank is the unit-length memory rows laid out transposed,
  computed once before the steps; the raw bank is passed through unchanged. So each step writes its block of the
  whole-array functions `weightArr` and `readoutArr`, and the 128 blocks tile the arrays.
-/
import proofs.«152083_j28037546508335_2_alg».proof.Proof.Gen.KernelIdeal.Value
import proofs.«152083_j28037546508335_2_alg».proof.Proof.KernelRow
import proofs.«152083_j28037546508335_2_alg».proof.Proof.ReferenceRow
import Idealize.ShloMosaic.Lib.ValueLayout
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Addressing

variable (m : (ℓ : Loc nD τ sig) → Buf (Elt Ideal) ℓ) (ρ : Dev nD → PrngReg)

theorem hz : (![0, 0] : Fin 2 → Nat) = fun _ => 0 := funext fun a => by fin_cases a <;> rfl

/-! ## The memory bank as the steps find it -/

/-- The transposed bank the steps read is the unit-length memory rows, transposed. -/
theorem bankT_eq (c : Dev nD) :
    @Eq (FVec Ideal S256x2000 .bf16) (V m c main_v9)
      (truncf (F := Ideal) .bf16 (transpose S256x2000 [1, 0] (Cert.ReferenceIdeal.Read.val_main_v15 (F := Ideal) (m ((c : Thread nD τ).loc main_arg1)))
          Gen.transposes_S2000x256_S256x2000_1_0) Gen.bitsLt_bf16_f32) := by
  dsimp only [Gen.V, Gen.hostOps0]
  after_results
  rfl

/-- The raw bank the steps read is the memory argument. -/
theorem bank_eq (c : Dev nD) :
    @Eq (FVec Ideal S2000x256 .bf16) (V m c main_v10)
      (truncf (F := Ideal) .bf16 (m ((c : Thread nD τ).loc main_arg1)) Gen.bitsLt_bf16_f32) := by
  dsimp only [Gen.V, Gen.hostOps0]
  after_results

/-- The transposed bank at `(k, l)`: entry `k` of memory row `l` scaled to unit length. -/
theorem bankT_apply (c : Dev nD) (k : Fin 256) (l : Fin 2000) :
    V m c main_v9 (ix2 k l) = unitRow (fun k : Fin 256 => m ((c : Thread nD τ).loc main_arg1) (ix2 l k)) k := by
  rw [bankT_eq, truncf_apply, transpose_ix2_apply]
  exact Cert.ReferenceIdeal.RefRow.unit_memory _ l k

/-- The raw bank at `(j, d)`. -/
theorem bank_apply (c : Dev nD) (j : Fin 2000) (d : Fin 256) :
    V m c main_v10 (ix2 j d) = m ((c : Thread nD τ).loc main_arg1) (ix2 j d) := by
  rw [bank_eq]
  rfl

/-! ## Where each step reads and writes -/

/-- The printed index maps over the 128 steps: the queries and both results move together along the rows, the banks
    stay put. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) < 128 :=
  (by decide +kernel : ∀ t : Fin grid0.N, _)

/-- Every block of rows is some step's. -/
theorem idx_onto : ∀ q0 : Fin 128, ∃ t : Fin cfg0.N, win0_4.index t (0 : Fin 2) = q0.val :=
  (by decide +kernel : ∀ q0 : Fin 128, ∃ t : Fin grid0.N, win0_4.index t (0 : Fin 2) = q0.val)

/-- The row of the arrays that row `p` of step `t`'s blocks is. -/
def rowOf (t : Fin cfg0.N) (p : Fin 512) : Fin 65536 :=
  ⟨win0_4.index t (0 : Fin 2) * 512 + p.val, by have := (idx_facts t).2.2.2.2.2.2.2.2.2; have := p.isLt; omega⟩

/-- Step `t`'s block of queries, at `(p, k)`. -/
theorem query_apply (c : Dev nD) (t : Fin cfg0.N) (p : Fin 512) (k : Fin 256) :
    iblk m c 0 t (ix2 p k) = m ((c : Thread nD τ).loc main_arg0) (ix2 (rowOf t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = win0_4.index t (0 : Fin 2) * 512 + p.val; omega
  | ⟨1, _⟩ => show win0_0.index t (1 : Fin 2) * 256 + 1 * k.val = k.val; omega

/-- Step `t`'s transposed bank, at `(k, l)`. -/
theorem stepBankT_apply (c : Dev nD) (t : Fin cfg0.N) (k : Fin 256) (l : Fin 2000) :
    iblk m c 1 t (ix2 k l) = unitRow (fun k : Fin 256 => m ((c : Thread nD τ).loc main_arg1) (ix2 l k)) k := by
  obtain ⟨-, -, e2, e3, -⟩ := idx_facts t
  show V m c main_v9 (((cfg0.win 1).blk t).view.emb (ix2 k l)) = _
  have he : ((cfg0.win 1).blk t).view.emb (ix2 k l) = ix2 k l := funext fun a => Fin.ext (by
    match a with
    | ⟨0, _⟩ => show win0_1.index t (0 : Fin 2) * 256 + 1 * k.val = k.val; omega
    | ⟨1, _⟩ => show win0_1.index t (1 : Fin 2) * 2000 + 1 * l.val = l.val; omega)
  rw [he]
  exact bankT_apply m c k l

/-- Step `t`'s raw bank, at `(j, d)`. -/
theorem stepBank_apply (c : Dev nD) (t : Fin cfg0.N) (j : Fin 2000) (d : Fin 256) :
    iblk m c 2 t (ix2 j d) = m ((c : Thread nD τ).loc main_arg1) (ix2 j d) := by
  obtain ⟨-, -, -, -, e4, e5, -⟩ := idx_facts t
  show V m c main_v10 (((cfg0.win 2).blk t).view.emb (ix2 j d)) = _
  have he : ((cfg0.win 2).blk t).view.emb (ix2 j d) = ix2 j d := funext fun a => Fin.ext (by
    match a with
    | ⟨0, _⟩ => show win0_2.index t (0 : Fin 2) * 2000 + 1 * j.val = j.val; omega
    | ⟨1, _⟩ => show win0_2.index t (1 : Fin 2) * 256 + 1 * d.val = d.val; omega)
  rw [he]
  exact bank_apply m c j d

/-- Step `t`'s weights at `(p, q)` are the addressing weights of the arrays' row `rowOf t p`. -/
theorem stepWeight_apply (c : Dev nD) (t : Fin cfg0.N) (p : Fin 512) (q : Fin 2000) :
    k0_pay1 (F := Ideal) (iblk m c 0 t) (iblk m c 1 t) (ix2 p q)
      = weight (m ((c : Thread nD τ).loc main_arg0)) (m ((c : Thread nD τ).loc main_arg1)) (rowOf t p) q := by
  refine (Row.pay1_apply (iblk m c 0 t) (iblk m c 1 t) p q).trans ?_
  unfold weight
  have h0 : (fun k : Fin 256 => iblk m c 0 t (ix2 p k))
      = fun k : Fin 256 => m ((c : Thread nD τ).loc main_arg0) (ix2 (rowOf t p) k) := funext fun k => query_apply m c t p k
  have h1 : (fun (l : Fin 2000) (k : Fin 256) => iblk m c 1 t (ix2 k l))
      = fun l : Fin 2000 => unitRow fun k : Fin 256 => m ((c : Thread nD τ).loc main_arg1) (ix2 l k) :=
    funext fun l => funext fun k => stepBankT_apply m c t k l
  exact congrArg₂ (fun a B => address (unitRow a) B q) h0 h1

/-! ## What each step writes back -/

/-- Step `t` writes back its block of the weight array. -/
theorem flushedW_eq (c : Dev nD) (t : Fin cfg0.N) :
    (dats m 0 c).flushed 4 t = ((cfg0.win 4).blk t).view.read (Elt Ideal)
      (weightArr (m ((c : Thread nD τ).loc main_arg0)) (m ((c : Thread nD τ).loc main_arg1))) := by
  rw [Cert.KernelIdeal.Value.flushed4 m c t]
  unfold out0_4
  rw [View.canon_unit_zero hz]
  simp only [View.ld_unit_zero (S := S512x256) hz, View.ld_unit_zero (S := S256x2000) hz]
  obtain ⟨-, -, -, -, -, -, -, -, e8, e9⟩ := idx_facts t
  funext j
  obtain ⟨p, q, rfl⟩ : ∃ (p : Fin 512) (q : Fin 2000), j = ix2 p q := ⟨j 0, j 1, eq_ix2 j⟩
  show k0_pay1 (F := Ideal) (iblk m c 0 t) (iblk m c 1 t) (ix2 p q)
    = weightArr (m ((c : Thread nD τ).loc main_arg0)) (m ((c : Thread nD τ).loc main_arg1)) (((cfg0.win 4).blk t).view.emb (ix2 p q))
  have he : ((cfg0.win 4).blk t).view.emb (ix2 p q) = ix2 (rowOf t p) q := funext fun a => Fin.ext (by
    match a with
    | ⟨0, _⟩ => show win0_4.index t (0 : Fin 2) * 512 + 1 * p.val = win0_4.index t (0 : Fin 2) * 512 + p.val; omega
    | ⟨1, _⟩ => show win0_4.index t (1 : Fin 2) * 2000 + 1 * q.val = q.val; omega)
  rw [he]
  exact stepWeight_apply m c t p q

/-- Step `t` writes back its block of the read-out array. -/
theorem flushedZ_eq (c : Dev nD) (t : Fin cfg0.N) :
    (dats m 0 c).flushed 3 t = ((cfg0.win 3).blk t).view.read (Elt Ideal)
      (readoutArr (m ((c : Thread nD τ).loc main_arg0)) (m ((c : Thread nD τ).loc main_arg1))) := by
  rw [Cert.KernelIdeal.Value.flushed3 m c t]
  unfold out0_3
  rw [View.canon_unit_zero hz]
  simp only [View.ld_unit_zero (S := S512x256) hz, View.ld_unit_zero (S := S256x2000) hz, View.ld_unit_zero (S := S2000x256) hz]
  obtain ⟨-, -, -, -, -, -, e6, e7, -, e9⟩ := idx_facts t
  funext j
  obtain ⟨p, d, rfl⟩ : ∃ (p : Fin 512) (d : Fin 256), j = ix2 p d := ⟨j 0, j 1, eq_ix2 j⟩
  show k0_pay2 (F := Ideal) (iblk m c 0 t) (iblk m c 1 t) (iblk m c 2 t) (ix2 p d)
    = readoutArr (m ((c : Thread nD τ).loc main_arg0)) (m ((c : Thread nD τ).loc main_arg1)) (((cfg0.win 3).blk t).view.emb (ix2 p d))
  have he : ((cfg0.win 3).blk t).view.emb (ix2 p d) = ix2 (rowOf t p) d := funext fun a => Fin.ext (by
    match a with
    | ⟨0, _⟩ => show win0_3.index t (0 : Fin 2) * 512 + 1 * p.val = win0_4.index t (0 : Fin 2) * 512 + p.val; omega
    | ⟨1, _⟩ => show win0_3.index t (1 : Fin 2) * 256 + 1 * d.val = d.val; omega)
  rw [he]
  refine (Row.pay2_apply (iblk m c 0 t) (iblk m c 1 t) (iblk m c 2 t) p d).trans ?_
  show _ = readout _ _ (rowOf t p) d
  unfold readout
  exact Finset.sum_congr rfl fun j _ => by rw [stepWeight_apply m c t p j, stepBank_apply m c t j d]

/-! ## The blocks tile the arrays -/

theorem mem_blkW (t : Fin cfg0.N) (i : S65536x2000.Idx) :
    i ∈ ((cfg0.win 4).blk t).view.set ↔ ∀ a : Fin 2, win0_4.index t a * S512x2000.size a ≤ (i a).val
      ∧ (i a).val < win0_4.index t a * S512x2000.size a + S512x2000.size a := by
  show i ∈ ((View.whole main_v11_1).slice (win0_4.rect t)).set ↔ _
  rw [View.set_slice_whole, Rect.mem_set_unit]
  exact Iff.rfl

theorem mem_blkZ (t : Fin cfg0.N) (i : S65536x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v11_0).slice (win0_3.rect t)).set ↔ _
  rw [View.set_slice_whole, Rect.mem_set_unit]
  exact Iff.rfl

/-- Row `r` of the weight array lies in the block of step `r / 512`. -/
theorem coverW (i : S65536x2000.Idx) :
    ∃ t : Fin cfg0.N, (cfg0.win 4).flush t = true ∧ i ∈ ((cfg0.win 4).blk t).view.set := by
  have hi0 : (i 0).val < 65536 := (i 0).isLt
  have hi1 : (i 1).val < 2000 := (i 1).isLt
  obtain ⟨t, ht⟩ := idx_onto ⟨(i 0).val / 512, by omega⟩
  have q0 : win0_4.index t (0 : Fin 2) = (i 0).val / 512 := ht
  obtain ⟨-, -, -, -, -, -, -, -, e8, -⟩ := idx_facts t
  refine ⟨t, flush0_4 t, ?_⟩
  rw [mem_blkW]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2000 ≤ (i 1).val ∧ (i 1).val < win0_4.index t (1 : Fin 2) * 2000 + 2000; omega

/-- Row `r` of the read-out array lies in the block of step `r / 512`. -/
theorem coverZ (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  obtain ⟨t, ht⟩ := idx_onto ⟨(i 0).val / 512, by omega⟩
  have q0 : win0_4.index t (0 : Fin 2) = (i 0).val / 512 := ht
  obtain ⟨-, -, -, -, -, -, e6, e7, -, -⟩ := idx_facts t
  refine ⟨t, flush0_3 t, ?_⟩
  rw [mem_blkZ]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-! ## The two arrays after the run -/

theorem finalW (c : Dev nD) : (dats m 0 c).arrAt 4 cfg0.N
    = weightArr (m ((c : Thread nD τ).loc main_arg0)) (m ((c : Thread nD τ).loc main_arg1)) :=
  (dats m 0 c).arrAt_eq_of_cover 4 _ (fun t _ => flushedW_eq m c t) coverW

theorem finalZ (c : Dev nD) : (dats m 0 c).arrAt 3 cfg0.N
    = readoutArr (m ((c : Thread nD τ).loc main_arg0)) (m ((c : Thread nD τ).loc main_arg1)) :=
  (dats m 0 c).arrAt_eq_of_cover 3 _ (fun t _ => flushedZ_eq m c t) coverZ

/-- The run, read: the read-out array and the weight array as whole-array functions of the two arguments, the
    arguments unchanged. -/
theorem run : θ_run defs (onTc (τ := τ) (main (F := Ideal))) ⟨m, fun _ => 0, ρ⟩ fun r => ∀ c : Dev nD,
      r.2.mem ((c : Thread nD τ).loc main_v11_0) = readoutArr (m ((c : Thread nD τ).loc main_arg0)) (m ((c : Thread nD τ).loc main_arg1))
      ∧ r.2.mem ((c : Thread nD τ).loc main_v11_1) = weightArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalZ m c), (h c).2.1.trans (finalW m c), (h c).2.2⟩)
    (Cert.KernelIdeal.Value.run_blocks m ρ)

end Cert.KernelIdeal.Arrays

end
-- ==== Proof.FiniteInputs.lean ====
/-
  The precondition read back: every entry of both inputs is a real number.

  The precondition is the conjunction, over both arrays, of "every entry's absolute value is below `+∞`". On the
  extended reals an entry whose absolute value `max x (-x)` is below `⊤` is neither `⊤` nor `⊥`, hence a real.
-/
import proofs.«152083_j28037546508335_2_alg».proof.Pre_finite_inputs
import proofs.«152083_j28037546508335_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Real

open Cert.Pre_finite_inputs Cert.Pre_finite_inputs.Gen Idealize.ShloMosaic

instance : Subsingleton S_.Idx := ⟨fun a b => funext fun d => d.elim0⟩

/-- The word of `+∞` denotes `⊤`. -/
theorem posInf_eq : Ideal.ofBits .f32 0x7F800000#32 = ⊤ := by
  simp [Ideal.ofBits, Ideal.ieee]

/-- An extended real whose absolute value is below `+∞` is a real. -/
theorem real_of_abs_lt (x : EReal) (h : Ideal.cmp .olt (max x (-x)) (Ideal.ofBits .f32 0x7F800000#32) = 1#1) :
    ∃ r : ℝ, x = (r : EReal) := by
  rw [posInf_eq] at h
  have hlt : max x (-x) < ⊤ := by
    by_contra hc
    simp [Ideal.cmp, hc] at h
  induction x using EReal.rec with
  | bot => simp at hlt
  | top => simp at hlt
  | coe r => exact ⟨r, rfl⟩

/-- Under the precondition every entry of both arrays is a real. -/
theorem entries_real (z : FVec Ideal S65536x256 .f32) (mem : FVec Ideal S2000x256 .f32)
    (h : fn (F := Ideal) z mem = fun _ => 1#1) :
    (∀ i, ∃ r : ℝ, z i = (r : EReal)) ∧ (∀ i, ∃ r : ℝ, mem i = (r : EReal)) := by
  have h0 := congrFun h ValueIdx.ix0
  dsimp only [fn] at h0
  obtain ⟨h1, h2⟩ := IntOp.andi_eq_one.mp h0
  refine ⟨fun i => ?_, fun i => ?_⟩
  · exact real_of_abs_lt (z i) (Host.reduce_andi_all _ _ _ _ _ h1 i)
  · exact real_of_abs_lt (mem i) (Host.reduce_andi_all _ _ _ _ _ h2 i)

end Cert.Pre_finite_inputs.Real

end
-- ==== Proof.lean ====
/-
  The kernel and its reference compute the same two arrays on the extended reals.

  Both programs take 65536 query rows and a bank of 2000 memory rows, all of length 256, and return the addressing
  weights (65536 × 2000) and the read-out of the bank under them (65536 × 256). Row by row: query and memory rows are
  scaled to unit length, their cosines are turned into weights by the exponential share, the weights are shrunk hard
  at a threshold and divided by their sum, and the raw memory rows are summed under the weights
  (`Proof/Addressing.lean`).

  The kernel prepares the unit-length bank once, transposed, and walks the queries in 128 blocks of 512 rows; each
  step's arithmetic read at an index is the row formula (`Proof/KernelRow.lean`), and the 128 blocks tile the two
  result arrays (`Proof/KernelArrays.lean`). The reference subtracts each row's largest cosine before exponentiating
  and writes the shrinkage with a positive part and an absolute value (`Proof/ReferenceRow.lean`). The two spellings
  agree whenever every cosine is a real number — the shift cancels between an exponential and the sum of them, and
  both shrinkages are `w (w - λ) / ((w - λ) + ε)` above the threshold and `0` elsewhere (`Proof/AddressingLaws.lean`) —
  and the precondition makes every input entry, hence every cosine, real (`Proof/FiniteInputs.lean`).

  The idealization rewrote no operation, so there is nothing to preserve; the three frames are the generated ones.
-/
import proofs.«152083_j28037546508335_2_alg».proof.Defs
import proofs.«152083_j28037546508335_2_alg».proof.Proof.Gen.Kernel
import proofs.«152083_j28037546508335_2_alg».proof.Proof.Gen.Kernel.Skeleton
import proofs.«152083_j28037546508335_2_alg».proof.Proof.Gen.Kernel.Launch
import proofs.«152083_j28037546508335_2_alg».proof.Proof.Gen.Kernel.Points
import proofs.«152083_j28037546508335_2_alg».proof.Proof.Gen.Kernel.Frame
import proofs.«152083_j28037546508335_2_alg».proof.Proof.Gen.KernelIdeal
import proofs.«152083_j28037546508335_2_alg».proof.Proof.Gen.KernelIdeal.Skeleton
import proofs.«152083_j28037546508335_2_alg».proof.Proof.Gen.KernelIdeal.Launch
import proofs.«152083_j28037546508335_2_alg».proof.Proof.Gen.KernelIdeal.Points
import proofs.«152083_j28037546508335_2_alg».proof.Proof.Gen.KernelIdeal.Frame
import proofs.«152083_j28037546508335_2_alg».proof.Proof.Gen.KernelIdeal.Value
import proofs.«152083_j28037546508335_2_alg».proof.Proof.Gen.ReferenceIdeal
import proofs.«152083_j28037546508335_2_alg».proof.Proof.Gen.ReferenceIdeal.Run
import proofs.«152083_j28037546508335_2_alg».proof.Proof.Gen.ReferenceIdeal.Read
import proofs.«152083_j28037546508335_2_alg».proof.Proof.Gen.Pre_finite_inputs
import proofs.«152083_j28037546508335_2_alg».proof.Proof.KernelArrays
import proofs.«152083_j28037546508335_2_alg».proof.Proof.ReferenceRow
import proofs.«152083_j28037546508335_2_alg».proof.Proof.FiniteInputs
import Idealize.ShloMosaic.Adequacy
import Idealize.ShloMosaic.Init

noncomputable section

namespace Cert.Proof

open Idealize.ShloMosaic Idealize.SL.Sem Cert.Addressing

theorem frame_kernel : Cert.frame_Kernel := fun m ρ _ => Cert.Kernel.Gen.frame m ρ

theorem frame_ideal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the read-out array and the weight array of the same two arguments. -/
theorem algebraic : Cert.algebraic_KernelIdeal_ReferenceIdeal := by
  intro m ρ m' ρ' hpre hagree
  have hreal := fun c : Dev Cert.KernelIdeal.nD => Cert.Pre_finite_inputs.Real.entries_real _ _ (hpre c)
  refine ⟨fun c => readoutArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => weightArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v42_eq, (hagree c).1, (hagree c).2]
    exact Cert.ReferenceIdeal.RefRow.readoutArr_eq _ _ (hreal c).1 (hreal c).2
  · rw [Cert.ReferenceIdeal.Read.val_main_v41_eq, (hagree c).1, (hagree c).2]
    exact Cert.ReferenceIdeal.RefRow.weightArr_eq _ _ (hreal c).1 (hreal c).2

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
